-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x50257 : Shape := ⟨2, ![4096, 50257]⟩
abbrev S_ : Shape := ⟨0, ![]⟩

class Facts : Prop where
  bcast_S_S4096x50257 : S_.BroadcastsInDim S4096x50257 (![] : Fin 0 → Fin S4096x50257.rank)
  reducesTo_S4096x50257_S_d0_1 : S4096x50257.ReducesTo [0, 1] S_
  h_S_ : 0 < S_.numel

variable [Facts]

def fn {F : FTy → Type} [FloatOps F] (main_arg0 : FVec F S4096x50257 .f32) (main_arg1 : FVec F S4096x50257 .f32) : IVec S_ 1 :=
  let main_v0 : FVec F S4096x50257 .f32 := Host.absf main_arg0
  let main_cst : FVec F S_ .f32 := constant S_ .f32 0x7F800000#32
  let main_v1 : FVec F S4096x50257 .f32 := broadcastInDim S4096x50257 ![] bcast_S_S4096x50257 main_cst
  let main_v2 : IVec S4096x50257 1 := cmpf .olt main_v0 main_v1
  let main_c : IVec S_ 1 := constantI S_ 1 1#1
  let main_v3 : IVec S_ 1 := (fun x v => Host.reduce IntOp.andi x v reducesTo_S4096x50257_S_d0_1 h_S_) main_v2 main_c
  let main_v4 : FVec F S4096x50257 .f32 := Host.absf main_arg1
  let main_cst_0 : FVec F S_ .f32 := constant S_ .f32 0x7F800000#32
  let main_v5 : FVec F S4096x50257 .f32 := broadcastInDim S4096x50257 ![] bcast_S_S4096x50257 main_cst_0
  let main_v6 : IVec S4096x50257 1 := cmpf .olt main_v4 main_v5
  let main_c_1 : IVec S_ 1 := constantI S_ 1 1#1
  let main_v7 : IVec S_ 1 := (fun x v => Host.reduce IntOp.andi x v reducesTo_S4096x50257_S_d0_1 h_S_) main_v6 main_c_1
  let main_v8 : IVec S_ 1 := andi main_v3 main_v7
  main_v8
-- ==== Kernel.lean ====
abbrev S4096x50257 : Shape := ⟨2, ![4096, 50257]⟩
abbrev S16x128 : Shape := ⟨2, ![16, 128]⟩
abbrev S16x50257 : Shape := ⟨2, ![16, 50257]⟩
abbrev S8x128 : Shape := ⟨2, ![8, 128]⟩
abbrev S16 : Shape := ⟨1, ![16]⟩
abbrev S16x1 : Shape := ⟨2, ![16, 1]⟩
abbrev S1 : Shape := ⟨1, ![1]⟩
abbrev S1x1 : Shape := ⟨2, ![1, 1]⟩
abbrev S_ : Shape := ⟨0, ![]⟩

abbrev nBuf : Space → Nat
  | .hbm => 5
  | .vmem => 7
  | .smem => 0
  | _ => 0

abbrev bufTy : (tb : Table) → Fin (tcTables nBuf tb) → BufTy
  | .hbm, ⟨0, _⟩ => ⟨S4096x50257, .f32⟩
  | .hbm, ⟨1, _⟩ => ⟨S4096x50257, .f32⟩
  | .hbm, ⟨2, _⟩ => ⟨S16x128, .f32⟩
  | .hbm, ⟨3, _⟩ => ⟨S_, .f32⟩
  | .hbm, ⟨4, _⟩ => ⟨S_, .f32⟩
  | .local _ .vmem, ⟨0, _⟩ => ⟨S16x50257, .f32⟩
  | .local _ .vmem, ⟨1, _⟩ => ⟨S16x50257, .f32⟩
  | .local _ .vmem, ⟨2, _⟩ => ⟨S16x50257, .f32⟩
  | .local _ .vmem, ⟨3, _⟩ => ⟨S16x50257, .f32⟩
  | .local _ .vmem, ⟨4, _⟩ => ⟨S8x128, .f32⟩
  | .local _ .vmem, ⟨5, _⟩ => ⟨S8x128, .f32⟩
  | .local _ .vmem, ⟨6, _⟩ => ⟨S8x128, .f32⟩
  | _, _ => ⟨S4096x50257, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 128], ![false, false]⟩

def k0_cond2 (i : grid0.Coords) : BitVec 1 :=
  let arg1 : BitVec 32 := BitVec.ofNat 32 (i 1).val
  let c127_i32 : BitVec 32 := 127#32
  let v27 : BitVec 1 := Scalar.cmpi .eq arg1 c127_i32
  let v28 : BitVec 32 := Scalar.extui v27
  let c0_i32_11 : BitVec 32 := 0#32
  let v29 : BitVec 1 := Scalar.cmpi .ne v28 c0_i32_11
  v29

def cc0_transform_0 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S16x50257 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x50257 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S8x128_S8x128_0_0 : ∀ a, (![0, 0] : Fin 2 → Nat) a + S8x128.size a ≤ S8x128.size a
  h_S8x128 : 0 < S8x128.numel
  shapeCasts_S8x128_S8x128 : S8x128.ShapeCasts S8x128
  inb_S16x50257_S16x50257_0_0 : ∀ a, (![0, 0] : Fin 2 → Nat) a + S16x50257.size a ≤ S16x50257.size a
  h_S16x50257 : 0 < S16x50257.numel
  reduces_S16x50257_S16 : S16x50257.Reduces [1] S16
  shapeCasts_S16_S16x1 : S16.ShapeCasts S16x1
  broadcasts_S16x1_S16x50257 : S16x1.Broadcasts S16x50257
  reduces_S16x1_S1 : S16x1.Reduces [0] S1
  shapeCasts_S1_S1x1 : S1.ShapeCasts S1x1
  inb_S8x128_S1x1_0_0 : ∀ a, (![0, 0] : Fin 2 → Nat) a + S1x1.size a ≤ S8x128.size a
  h_S1x1 : 0 < S1x1.numel
  shapeCasts_S1x1_S1x1 : S1x1.ShapeCasts S1x1
  reducesTo_S16x128_S_d0_1 : S16x128.ReducesTo [0, 1] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x50257.size a ≤ S4096x50257.size a
  hwx0_0 : ∀ i : grid0.Coords, EltTy.bits .f32 = 32 ∨ (Rect.block (s := S4096x50257) S16x50257.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x50257.size a ≤ S4096x50257.size a
  hwx0_1 : ∀ i : grid0.Coords, EltTy.bits .f32 = 32 ∨ (Rect.block (s := S4096x50257) S16x50257.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x128.size a ≤ S16x128.size a
  hwx0_2 : ∀ i : grid0.Coords, EltTy.bits .f32 = 32 ∨ (Rect.block (s := S16x128) S8x128.size (cc0_transform_2 i) (hinb0_2 i)).WholeWords (EltTy.packing .f32)

variable [Facts₀]

abbrev win0_0 : Pipeline.Window sig grid0 :=
  Pipeline.Window.ofSpec (Memref.whole main_arg0) S16x50257.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16x50257.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S4096x50257 : Shape := ⟨2, ![4096, 50257]⟩
abbrev S_ : Shape := ⟨0, ![]⟩
abbrev S4096 : Shape := ⟨1, ![4096]⟩
abbrev S4096x1 : Shape := ⟨2, ![4096, 1]⟩

abbrev nBuf : Space → Nat
  | .hbm => 23
  | .vmem => 0
  | .smem => 0
  | _ => 0

abbrev bufTy : (tb : Table) → Fin (tcTables nBuf tb) → BufTy
  | .hbm, ⟨0, _⟩ => ⟨S4096x50257, .f32⟩
  | .hbm, ⟨1, _⟩ => ⟨S4096x50257, .f32⟩
  | .hbm, ⟨2, _⟩ => ⟨S_, .f32⟩
  | .hbm, ⟨3, _⟩ => ⟨S4096, .f32⟩
  | .hbm, ⟨4, _⟩ => ⟨S_, .f32⟩
  | .hbm, ⟨5, _⟩ => ⟨S4096, .f32⟩
  | .hbm, ⟨6, _⟩ => ⟨S4096, .f32⟩
  | .hbm, ⟨7, _⟩ => ⟨S4096x1, .f32⟩
  | .hbm, ⟨8, _⟩ => ⟨S4096x50257, .f32⟩
  | .hbm, ⟨9, _⟩ => ⟨S4096x50257, .f32⟩
  | .hbm, ⟨10, _⟩ => ⟨S4096x50257, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S4096x1, .f32⟩
  | .hbm, ⟨15, _⟩ => ⟨S4096x50257, .f32⟩
  | .hbm, ⟨16, _⟩ => ⟨S4096x50257, .f32⟩
  | .hbm, ⟨17, _⟩ => ⟨S4096x50257, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | _, _ => ⟨S4096x50257, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_v0 : Ref sig .tc := ⟨.hbm, 3, rfl⟩
abbrev main_call0_cst_0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_call0_cst_1 : Ref sig .tc := ⟨.hbm, 11, rfl⟩
abbrev main_call0_v7 : Ref sig .tc := ⟨.hbm, 12, rfl⟩
abbrev main_call0_v8 : Ref sig .tc := ⟨.hbm, 13, rfl⟩
abbrev main_call0_v9 : Ref sig .tc := ⟨.hbm, 14, rfl⟩
abbrev main_call0_v10 : Ref sig .tc := ⟨.hbm, 15, rfl⟩
abbrev main_v0 : Ref sig .tc := ⟨.hbm, 16, rfl⟩
abbrev main_v1 : Ref sig .tc := ⟨.hbm, 17, rfl⟩
abbrev main_cst : Ref sig .tc := ⟨.hbm, 18, rfl⟩
abbrev main_v2 : Ref sig .tc := ⟨.hbm, 19, rfl⟩
abbrev main_v3 : Ref sig .tc := ⟨.hbm, 20, rfl⟩
abbrev main_cst_0 : Ref sig .tc := ⟨.hbm, 21, rfl⟩
abbrev main_v4 : Ref sig .tc := ⟨.hbm, 22, rfl⟩

abbrev nD : Nat := 1
abbrev τ : Topo := Topo.v7x

variable {F : FTy → Type} [FloatOps F]

class Facts₀ : Prop where
  reducesTo_S4096x50257_S4096_d1 : S4096x50257.ReducesTo [1] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x50257_0_1 : S4096x1.BroadcastsInDim S4096x50257 (![0, 1] : Fin 2 → Fin S4096x50257.rank)
  reducesTo_S4096x50257_S_d0_1 : S4096x50257.ReducesTo [0, 1] S_

variable [Facts₀]

class Facts : Prop extends Facts₀ where

variable [Facts]
-- ==== Proof.Pieces.lean ====
/-
  What one grid point's body leaves behind, as values.  The body keeps a running total in entry (0, 0) of an
  8 × 128 scratch buffer: at the first point of each half it stores a zero block over the whole buffer and then
  the first block's total over entry (0, 0); at every later point it replaces entry (0, 0) by its old value
  plus the point's total; at the last point of each half it also stores the whole buffer, scaled, into the
  output block.  Here these three shapes are read off the stores the body's run found: a buffer with its first
  entry replaced (`setFirst`), over the loads that feed the replacement (`firstOf`).
-/
import proofs.«119665_j48430051230146_1_alg».proof.Proof.Gen.KernelIdeal.Frame
import Idealize.ShloMosaic.Lib.Pipeline.Value
import Idealize.ShloMosaic.Lib.WritesUnit
import Idealize.ShloMosaic.Lib.ValueIdx
import Idealize.ShloMosaic.Lib.Tactic

noncomputable section

open Idealize.ShloMosaic Idealize.ShloMosaic.TcCoe Idealize.SL.Sem Idealize.ShloMosaic.ValueIdx

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- The scratch buffer's entry (0, 0), and the one entry of a 1 × 1 vector. -/
abbrev o00 : S8x128.Idx := ix2 (0 : Fin 8) (0 : Fin 128)
abbrev o11 : S1x1.Idx := ix2 (0 : Fin 1) (0 : Fin 1)

/-- Entry (0, 0) of a buffer, as a 1 × 1 vector. -/
def firstOf (xs : Vec F S8x128 .f32) : Vec F S1x1 .f32 := fun _ => xs o00

/-- A buffer with entry (0, 0) replaced by the one entry of `w`. -/
def setFirst (xs : Vec F S8x128 .f32) (w : Vec F S1x1 .f32) : Vec F S8x128 .f32 :=
  fun y => if (y 0).val = 0 ∧ (y 1).val = 0 then w o11 else xs y

/-- A 1 × 1 load at offset (0, 0) reads entry (0, 0). -/
theorem ld_first (inb : ∀ a, (![0, 0] : Fin 2 → ℕ) a + S1x1.size a ≤ S8x128.size a) (xs : Vec F S8x128 .f32) :
    View.ld xs (Rect.unit (s := S8x128) ![0, 0] S1x1.size inb) = firstOf xs := by
  funext x
  show xs ((Rect.unit (s := S8x128) ![0, 0] S1x1.size inb).emb x) = xs o00
  refine congrArg xs (funext fun a => Fin.ext ?_)
  match a with
  | ⟨0, _⟩ => show 0 + 1 * (x 0).val = 0; have : (x 0).val < 1 := (x 0).isLt; omega
  | ⟨1, _⟩ => show 0 + 1 * (x 1).val = 0; have : (x 1).val < 1 := (x 1).isLt; omega

/-- The newest store being a 1 × 1 store at offset (0, 0): the buffer reads as what the earlier stores left,
    with entry (0, 0) replaced. -/
theorem read_cons_first (v : View sig .tc .vmem S8x128 .f32) (f : v.ty.Contents (Elt F))
    (inb : ∀ a, (![0, 0] : Fin 2 → ℕ) a + S1x1.size a ≤ S8x128.size a)
    (w : (Rect.unit (s := S8x128) ![0, 0] S1x1.size inb).shape.Idx → Elt F .f32) (L : List (View.Piece (Elt F) S8x128 .f32)) :
    v.read (Elt F) (v.writes (Elt F) f ((⟨Rect.unit (s := S8x128) ![0, 0] S1x1.size inb, w⟩ : View.Piece (Elt F) S8x128 .f32) :: L))
      = setFirst (v.read (Elt F) (v.writes (Elt F) f L)) w := by
  funext y
  rw [View.read_writes_cons_unit v f inb w L y rfl]
  unfold setFirst
  by_cases h : (y 0).val = 0 ∧ (y 1).val = 0
  · have hall : ∀ a, (![0, 0] : Fin 2 → ℕ) a ≤ (y a).val ∧ (y a).val < (![0, 0] : Fin 2 → ℕ) a + S1x1.size a :=
      Fin.forall_fin_two.mpr ⟨⟨Nat.zero_le _, by show (y 0).val < 0 + 1; omega⟩, ⟨Nat.zero_le _, by show (y 1).val < 0 + 1; omega⟩⟩
    rw [if_pos h, dif_pos hall]
    refine congrArg w (funext fun a => Fin.ext ?_)
    match a with
    | ⟨0, _⟩ => show (y 0).val - 0 = 0; omega
    | ⟨1, _⟩ => show (y 1).val - 0 = 0; omega
  · rw [if_neg h, dif_neg]
    intro hall
    have h0 : (y 0).val < 0 + 1 := (hall 0).2
    have h1 : (y 1).val < 0 + 1 := (hall 1).2
    exact h ⟨by omega, by omega⟩

/-- A load of a whole input block reads the block. -/
theorem readAt_whole (M : Memref sig .tc .vmem S16x50257 .f32) (hM : M.IsWhole)
    (inb : ∀ a, (![0, 0] : Fin 2 → ℕ) a + S16x50257.size a ≤ S16x50257.size a) (x : Vec F S16x50257 .f32) :
    View.readAt (Elt F) M.view (Rect.unit (s := S16x50257) ![0, 0] S16x50257.size inb).toLoadRect (hM.unread x) = x := by
  rw [View.readAt_eq_ld, hM.read_unread, View.ld_unit_zero hz]

/-- A 1 × 1 load at (0, 0) of a whole scratch buffer reads its entry (0, 0). -/
theorem readAt_first (M : Memref sig .tc .vmem S8x128 .f32) (hM : M.IsWhole)
    (inb : ∀ a, (![0, 0] : Fin 2 → ℕ) a + S1x1.size a ≤ S8x128.size a) (xs : Vec F S8x128 .f32) :
    View.readAt (Elt F) M.view (Rect.unit (s := S8x128) ![0, 0] S1x1.size inb).toLoadRect (hM.unread xs) = firstOf xs := by
  rw [View.readAt_eq_ld, hM.read_unread, ld_first]

variable (c : Dev nD) (i : grid0.Coords) (a2 : Memref sig .tc .vmem S16x50257 .f32) (h2 : a2.IsWhole)
  (a3 : Memref sig .tc .vmem S16x50257 .f32) (h3 : a3.IsWhole) (a4 : Memref sig .tc .vmem S8x128 .f32) (h4 : a4.IsWhole)
  (a5 : Memref sig .tc .vmem S8x128 .f32) (h5 : a5.IsWhole)

/-- A LATER POINT of a half: the scratch keeps what it held but for entry (0, 0), which gains the point's total. -/
theorem sout_B (hc0 : ¬cond0_0 i) (hc1 : ¬cond0_1 i) (x0 x1 : Vec F S16x50257 .f32) (xs0 : Vec F S8x128 .f32) :
    sout0_B_0 c i a2 h2 a3 h3 a4 h4 a5 h5 hc0 hc1 x0 x1 xs0 = setFirst xs0 (k0_pay2 x0 x1 (firstOf xs0)) := by
  unfold sout0_B_0 kernelRun0_B
  dsimp only
  refine (read_cons_first a5.view (h5.unread xs0) _ _ []).trans ?_
  rw [View.writes_nil, h5.read_unread, readAt_whole a2 h2, readAt_whole a3 h3, readAt_first a5 h5]

/-- THE LAST POINT of a half leaves the scratch as a later point does … -/
theorem sout_C (hc0 : ¬cond0_0 i) (hc1 : cond0_1 i) (x0 x1 : Vec F S16x50257 .f32) (xs0 : Vec F S8x128 .f32) :
    sout0_C_0 c i a2 h2 a3 h3 a4 h4 a5 h5 hc0 hc1 x0 x1 xs0 = setFirst xs0 (k0_pay2 x0 x1 (firstOf xs0)) := by
  unfold sout0_C_0 kernelRun0_C
  dsimp only
  refine (read_cons_first a5.view (h5.unread xs0) _ _ []).trans ?_
  rw [View.writes_nil, h5.read_unread, readAt_whole a2 h2, readAt_whole a3 h3, readAt_first a5 h5]

/-- … and stores into the output block the scaling payload of that scratch. -/
theorem out_C (hc0 : ¬cond0_0 i) (hc1 : cond0_1 i) (x0 x1 : Vec F S16x50257 .f32) (xs0 : Vec F S8x128 .f32) :
    out0_C_2 c i a2 h2 a3 h3 a4 h4 a5 h5 hc0 hc1 x0 x1 xs0 = k0_pay3 (setFirst xs0 (k0_pay2 x0 x1 (firstOf xs0))) := by
  unfold out0_C_2
  rw [View.read_writes_junk_eq_canon]
  unfold kernelRun0_C
  dsimp only
  rw [View.canon_unit_zero hz]
  refine congrArg k0_pay3 ?_
  rw [View.readAt_eq_ld, View.ld_unit_zero hz]
  refine (read_cons_first a5.view (h5.unread xs0) _ _ []).trans ?_
  rw [View.writes_nil, h5.read_unread, readAt_whole a2 h2, readAt_whole a3 h3, readAt_first a5 h5]

/-- THE FIRST POINT of a half: the zero block, with entry (0, 0) at the zero block's entry plus the point's total. -/
theorem sout_A (hc0 : cond0_0 i) (hc1 : ¬cond0_1 i) (x0 x1 : Vec F S16x50257 .f32) :
    sout0_A_0 c i a2 h2 a3 h3 a4 h4 a5 h5 hc0 hc1 x0 x1
      = setFirst (k0_pay1 (F := F)) (k0_pay2 x0 x1 (firstOf (k0_pay1 (F := F)))) := by
  unfold sout0_A_0 kernelRun0_A
  dsimp only
  sl_unfold_words
  refine (read_cons_first VS0_0 VS0_0.junk _ _ _).trans ?_
  rw [View.read_writes_junk_eq_canon, View.canon_unit_zero hz, readAt_whole a2 h2, readAt_whole a3 h3,
    View.readCov_eq_canon_ld _ _ _ (fun y => ⟨_, List.mem_singleton_self _, View.mem_set_unit_zero hz Facts₀.inb_S8x128_S8x128_0_0 y⟩),
    View.canon_unit_zero hz, ld_first]

end Cert.KernelIdeal.Pieces

end
-- ==== Proof.RowLoss.lean ====
/-
  Soft-target cross entropy over the extended reals.  A row's log-softmax is its entries shifted by the row's
  maximum, less the logarithm of the sum of the shifted entries' exponentials; a row's loss is the sum of its
  targets times its log-softmax; the loss of the whole batch is minus the mean of the rows' losses.  Stated
  here: these functions, that finite inputs give finite row losses, and the one law the two programs differ by —
  accumulating the rows' losses block after block in two halves, scaling each half by -1/4096 and adding, against
  summing every row, negating and dividing by 4096.  The law distributes a product over a sum, which over the
  extended reals needs every row loss finite.
-/
import Idealize.ShloMosaic.PureOps.Ideal
import Idealize.ShloMosaic.Lib.ValueIdx

noncomputable section

namespace Cert.RowLoss

open Idealize.ShloMosaic

/-! ## The functions -/

/-- The largest entry of a row, starting from -∞. -/
def rowMax {K : ℕ} (r : Fin K → EReal) : EReal := (Finset.univ : Finset (Fin K)).fold max ⊥ r

/-- Entry `k` of a row's log-softmax. -/
def logSoft {K : ℕ} (r : Fin K → EReal) (k : Fin K) : EReal :=
  (r k - rowMax r) - Ideal.log (∑ k', Ideal.exp (r k' - rowMax r))

/-- A row's loss: its targets against its log-softmax. -/
def rowLoss {K : ℕ} (r t : Fin K → EReal) : EReal := ∑ k, t k * logSoft r k

/-- The loss of row `n` of a 4096 × 50257 batch of scores `x` against targets `t` (zero past the last row). -/
def rowL (x t : (⟨2, ![4096, 50257]⟩ : Shape).Idx → EReal) (n : ℕ) : EReal :=
  if h : n < 4096 then
    rowLoss (fun k : Fin 50257 => x (ValueIdx.ix2 (⟨n, h⟩ : Fin 4096) k)) (fun k : Fin 50257 => t (ValueIdx.ix2 (⟨n, h⟩ : Fin 4096) k))
  else 0

/-- Sixteen consecutive rows' losses, block `n`. -/
def blockSum (L : ℕ → EReal) (n : ℕ) : EReal := ∑ p ∈ Finset.range 16, L (16 * n + p)

/-- The accumulator after block `n`: started afresh from zero at every 128th block, otherwise carried. -/
def accAfter (B : ℕ → EReal) : ℕ → EReal
  | 0 => 0 + B 0
  | n + 1 => if (n + 1) % 128 = 0 then 0 + B (n + 1) else accAfter B n + B (n + 1)

theorem accAfter_reset (B : ℕ → EReal) (n : ℕ) (h : n % 128 = 0) : accAfter B n = 0 + B n := by
  cases n with
  | zero => rfl
  | succ n => exact if_pos h

theorem accAfter_step (B : ℕ → EReal) (n : ℕ) (h : ¬n % 128 = 0) : accAfter B n = accAfter B (n - 1) + B n := by
  cases n with
  | zero => exact absurd (Nat.zero_mod _) h
  | succ n => exact if_neg h

/-- Within a run of 128 blocks the accumulator is the sum of the blocks so far. -/
theorem accAfter_eq_sum (B : ℕ → EReal) (c : ℕ) : ∀ i : ℕ, i < 128 →
    accAfter B (128 * c + i) = ∑ i' ∈ Finset.range (i + 1), B (128 * c + i')
  | 0, _ => by
    rw [accAfter_reset B _ (by omega), Finset.sum_range_one, zero_add]
  | i + 1, hi => by
    rw [accAfter_step B _ (by omega), show 128 * c + (i + 1) - 1 = 128 * c + i from by omega,
      accAfter_eq_sum B c i (by omega), Finset.sum_range_succ _ (i + 1)]

/-! ## Finite inputs give finite losses -/

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of reals is a real. -/
theorem sum_real {ι : Type*} (s : Finset ι) (f : ι → EReal) (h : ∀ i ∈ s, ∃ a : ℝ, f i = a) :
    ∃ a : ℝ, ∑ i ∈ s, f i = a := by
  refine ⟨∑ i ∈ s, (f i).toReal, ?_⟩
  rw [coe_sum]
  refine Finset.sum_congr rfl fun i hi => ?_
  obtain ⟨a, ha⟩ := h i hi
  rw [ha, EReal.toReal_coe]

/-- The maximum of a nonempty row of reals is a real. -/
theorem rowMax_real {K : ℕ} [NeZero K] (r : Fin K → ℝ) : ∃ M : ℝ, rowMax (fun k => (r k : EReal)) = M := by
  have h1 : rowMax (fun k => (r k : EReal)) < ⊤ := by
    unfold rowMax
    rw [Finset.fold_max_lt]
    exact ⟨bot_lt_top, fun k _ => EReal.coe_lt_top _⟩
  have h2 : ⊥ < rowMax (fun k => (r k : EReal)) := by
    unfold rowMax
    exact lt_of_lt_of_le (EReal.bot_lt_coe (r 0)) ((Finset.le_fold_max (r 0 : EReal)).mpr (Or.inr ⟨0, Finset.mem_univ _, le_rfl⟩))
  exact ⟨_, (EReal.coe_toReal h1.ne h2.ne').symm⟩

/-- The loss of a nonempty row of reals against real targets is a real: the shifted entries are real, their
    exponentials sum to a positive real, whose logarithm is real. -/
theorem rowLoss_real {K : ℕ} [NeZero K] (r t : Fin K → ℝ) :
    ∃ a : ℝ, rowLoss (fun k => (r k : EReal)) (fun k => (t k : EReal)) = a := by
  obtain ⟨M, hM⟩ := rowMax_real r
  have hZ : (∑ k', Ideal.exp ((r k' : EReal) - rowMax fun k => (r k : EReal)))
      = ((∑ k', Real.exp (r k' - M) : ℝ) : EReal) := by
    rw [coe_sum]
    refine Finset.sum_congr rfl fun k _ => ?_
    rw [hM, ← EReal.coe_sub, Ideal.exp_coe]
  have hpos : 0 < ∑ k' : Fin K, Real.exp (r k' - M) :=
    Finset.sum_pos (fun _ _ => Real.exp_pos _) Finset.univ_nonempty
  refine ⟨∑ k, t k * ((r k - M) - Real.log (∑ k', Real.exp (r k' - M))), ?_⟩
  unfold rowLoss logSoft
  rw [coe_sum]
  refine Finset.sum_congr rfl fun k _ => ?_
  rw [hZ, Ideal.log_coe, if_neg (not_le.mpr hpos), hM, ← EReal.coe_sub, ← EReal.coe_sub, ← EReal.coe_mul]

theorem rowLoss_finite {K : ℕ} [NeZero K] (r t : Fin K → EReal) (hr : ∀ k, ∃ a : ℝ, r k = a)
    (ht : ∀ k, ∃ a : ℝ, t k = a) : ∃ a : ℝ, rowLoss r t = a := by
  choose r' hr' using hr
  choose t' ht' using ht
  obtain rfl : r = fun k => (r' k : EReal) := funext hr'
  obtain rfl : t = fun k => (t' k : EReal) := funext ht'
  exact rowLoss_real r' t'

/-- Finite scores and targets give every row a finite loss. -/
theorem rowL_finite (x t : (⟨2, ![4096, 50257]⟩ : Shape).Idx → EReal) (hx : ∀ i, ∃ a : ℝ, x i = a) (ht : ∀ i, ∃ a : ℝ, t i = a)
    (n : ℕ) : ∃ a : ℝ, rowL x t n = a := by
  unfold rowL
  split
  · haveI : NeZero 50257 := ⟨by norm_num⟩
    exact rowLoss_finite _ _ (fun k => hx _) (fun k => ht _)
  · exact ⟨0, rfl⟩

/-! ## The two totals agree -/

/-- Rows in blocks of sixteen: the sum over the first `16 N` rows is the sum of the first `N` blocks. -/
theorem sum_blocks (L : ℕ → EReal) : ∀ N : ℕ, ∑ n ∈ Finset.range (16 * N), L n = ∑ i ∈ Finset.range N, blockSum L i
  | 0 => by simp
  | N + 1 => by
    rw [show 16 * (N + 1) = 16 * N + 16 from by ring, Finset.sum_range_add, sum_blocks L N,
      Finset.sum_range_succ (blockSum L) N]
    rfl

/-- THE LAW.  With every row loss finite: the two halves' accumulators, each scaled by -1/4096, add up to minus
    the sum of all row losses divided by 4096.  Both sides are then real numbers, and over the reals this is
    distributivity. -/
theorem halves_eq_mean (L : ℕ → EReal) (hL : ∀ n, ∃ a : ℝ, L n = a) :
    (0 : EReal) + (accAfter (blockSum L) 127 * ((-1 / 4096 : ℝ) : EReal) + accAfter (blockSum L) 255 * ((-1 / 4096 : ℝ) : EReal))
      = Ideal.div (-(0 + ∑ n ∈ Finset.range 4096, L n)) ((4096 : ℝ) : EReal) := by
  have e0 : accAfter (blockSum L) 127 = ∑ i ∈ Finset.range 128, blockSum L i := by
    have := accAfter_eq_sum (blockSum L) 0 127 (by omega)
    simpa using this
  have e1 : accAfter (blockSum L) 255 = ∑ i ∈ Finset.range 128, blockSum L (128 + i) := by
    have := accAfter_eq_sum (blockSum L) 1 127 (by omega)
    simpa using this
  have hB : ∀ i, ∃ a : ℝ, blockSum L i = a := fun i => sum_real _ _ fun p _ => hL _
  obtain ⟨s0, hs0⟩ := sum_real (Finset.range 128) (blockSum L) fun i _ => hB i
  obtain ⟨s1, hs1⟩ := sum_real (Finset.range 128) (fun i => blockSum L (128 + i)) fun i _ => hB _
  have eS : ∑ n ∈ Finset.range 4096, L n = (s0 : EReal) + (s1 : EReal) := by
    rw [show 4096 = 16 * (128 + 128) from rfl, sum_blocks, Finset.sum_range_add, hs0, hs1]
  rw [e0, e1, hs0, hs1, eS, zero_add, zero_add, Ideal.div_coe (by norm_num : (4096 : ℝ) ≠ 0),
    ← EReal.coe_add, ← EReal.coe_neg, ← EReal.coe_mul, ← EReal.coe_mul, ← EReal.coe_mul, ← EReal.coe_add]
  congr 1
  ring

end Cert.RowLoss

end
-- ==== Proof.Consts.lean ====
/-
  The four f32 patterns the two programs' arithmetic meets, as extended reals: -∞, the scale -2⁻¹² = -1/4096,
  the divisor 2¹² = 4096, and +∞.
-/
import Idealize.ShloMosaic.PureOps.Ideal
import Idealize.ShloMosaic.PureOps.Ideal.Laws

noncomputable section

namespace Cert.Consts

open Idealize.ShloMosaic

theorem ofBits_neg_inf : Ideal.ofBits .f32 0xFF800000#32 = ⊥ := by
  simp [Ideal.ofBits, Ideal.ieee]

theorem ofBits_pos_inf : Ideal.ofBits .f32 0x7F800000#32 = ⊤ := by
  simp [Ideal.ofBits, Ideal.ieee]

theorem ofBits_4096 : Ideal.ofBits .f32 0x45800000#32 = ((4096 : ℝ) : EReal) := by
  simp [Ideal.ofBits, Ideal.ieee, -EReal.coe_mul]; norm_num

theorem ofBits_neg_inv_4096 : Ideal.ofBits .f32 0xB9800000#32 = ((-1 / 4096 : ℝ) : EReal) := by
  simp [Ideal.ofBits, Ideal.ieee, -EReal.coe_mul]; norm_num

end Cert.Consts

end
-- ==== Proof.Payload.lean ====
/-
  The body's arithmetic over the extended reals.  From a block of sixteen rows of scores `x0` and of targets
  `x1` the body takes each row's maximum, shifts the row by it, sums the exponentials, subtracts the logarithm,
  multiplies by the targets and sums along the row — the row's loss — and then sums the sixteen losses: the
  block's total `blk x0 x1`.  The value it stores over the accumulator's entry is the old entry plus that
  total; the value it stores into the output block is the scratch buffer times -1/4096; the block it resets the
  scratch buffer to is zero.
-/
import proofs.«119665_j48430051230146_1_alg».proof.Proof.Gen.KernelIdeal.Skeleton
import proofs.«119665_j48430051230146_1_alg».proof.Proof.RowLoss
import proofs.«119665_j48430051230146_1_alg».proof.Proof.Consts
import Idealize.ShloMosaic.Lib.Pipeline.Value
import Idealize.ShloMosaic.Lib.ValueIdx
import Idealize.ShloMosaic.PureOps.Ideal.Laws

noncomputable section

open Idealize.ShloMosaic Idealize.ShloMosaic.ValueIdx

namespace Cert.KernelIdeal.Payload

open Cert.KernelIdeal Cert.KernelIdeal.Gen Cert.RowLoss

/-! ## The layout operations of the body, read at an index -/

section Layout

variable {α : Type}

/-- Sixteen values viewed as a column: entry (p, 0) is value p. -/
theorem col_apply (v : S16.Idx → α) (h : S16.ShapeCasts S16x1) (p : Fin 16) (u : Fin 1) :
    shapeCast S16x1 v h (ix2 p u) = v (ix1 p) :=
  shapeCast_apply v h _ _ (by
    have hu : u.val = 0 := by omega
    rw [Shape.rowMajor_val_two, Shape.rowMajor_val_one]
    show p.val = p.val * 1 + u.val
    omega)

/-- A column broadcast along its rows: entry (p, k) is the column's entry (p, 0). -/
theorem rowcast_apply (v : S16x1.Idx → α) (h : S16x1.Broadcasts S16x50257) (p : Fin 16) (k : Fin 50257) :
    broadcastTo S16x50257 v h (ix2 p k) = v (ix2 p (0 : Fin 1)) := by
  refine broadcastTo_apply v h (ix2 p k) (ix2 p (0 : Fin 1)) fun ax => ?_
  match ax with
  | ⟨0, _⟩ =>
    show p.val = if (16 : ℕ) = 1 then 0 else p.val
    rw [if_neg (by decide)]
  | ⟨1, _⟩ =>
    show 0 = if (1 : ℕ) = 1 then 0 else k.val
    rw [if_pos rfl]

/-- One value viewed as a 1 × 1 vector. -/
theorem one_apply (v : S1.Idx → α) (h : S1.ShapeCasts S1x1) (j : S1x1.Idx) :
    shapeCast S1x1 v h j = v (ix1 (0 : Fin 1)) := by
  obtain ⟨a, b, rfl⟩ : ∃ (a : Fin 1) (b : Fin 1), j = ix2 a b := ⟨j 0, j 1, eq_ix2 j⟩
  refine shapeCast_apply v h _ _ ?_
  rw [Shape.rowMajor_val_two, Shape.rowMajor_val_one]
  show 0 = a.val * 1 + b.val
  omega

end Layout

/-! ## The reductions of the body, as sums and a maximum -/

/-- The sum along a row. -/
theorem laneSum (src : FVec Ideal S16x50257 .f32) (h : S16x50257.Reduces [1] S16) (hφ : FKind.Formats .f32)
    (hacc : (0x00000000#32 : BitVec FTy.f32.bits) = FKind.add.neutral .f32 hφ) (p : Fin 16) :
    multiReduction .add [1] S16 src 0x00000000#32 h hφ hacc (ix1 p) = ∑ k : Fin 50257, src (ix2 p k) :=
  (Ideal.multiReduction_add_single src _ h hφ hacc (ix1 p)).trans
    (Finset.sum_congr rfl fun k _ => congrArg src (funext fun a => Fin.ext (by
      match a with
      | ⟨0, _⟩ => rfl
      | ⟨1, _⟩ => rfl)))

/-- The maximum along a row, from -∞. -/
theorem laneMax (src : FVec Ideal S16x50257 .f32) (h : S16x50257.Reduces [1] S16) (hφ : FKind.Formats .f32)
    (hacc : (0xFF800000#32 : BitVec FTy.f32.bits) = FKind.maximumf.neutral .f32 hφ) (p : Fin 16) :
    multiReduction .maximumf [1] S16 src 0xFF800000#32 h hφ hacc (ix1 p) = rowMax (fun k : Fin 50257 => src (ix2 p k)) := by
  refine (Ideal.multiReduction_maximumf_single src _ h hφ hacc (ix1 p)).trans ?_
  unfold rowMax
  rw [Ideal.ofBits_def, Cert.Consts.ofBits_neg_inf]
  refine congrArg (fun f => Finset.fold max (⊥ : EReal) f Finset.univ) (funext fun k => congrArg src (funext fun a => Fin.ext ?_))
  match a with
  | ⟨0, _⟩ => rfl
  | ⟨1, _⟩ => rfl

/-- The sum down a column of sixteen. -/
theorem rowsSum (src : FVec Ideal S16x1 .f32) (h : S16x1.Reduces [0] S1) (hφ : FKind.Formats .f32)
    (hacc : (0x00000000#32 : BitVec FTy.f32.bits) = FKind.add.neutral .f32 hφ) (u : Fin 1) :
    multiReduction .add [0] S1 src 0x00000000#32 h hφ hacc (ix1 u) = ∑ p : Fin 16, src (ix2 p (0 : Fin 1)) :=
  (Ideal.multiReduction_add_single src _ h hφ hacc (ix1 u)).trans
    (Finset.sum_congr rfl fun p _ => congrArg src (funext fun a => Fin.ext (by
      match a with
      | ⟨0, _⟩ => rfl
      | ⟨1, _⟩ =>
        show u.val = 0
        omega)))

/-- The logarithm and the exponential of a vector act entry by entry. -/
theorem log_apply {s : Shape} (v : FVec Ideal s .f32) (i : s.Idx) : log v i = Ideal.log (v i) := rfl
theorem exp_apply {s : Shape} (v : FVec Ideal s .f32) (i : s.Idx) : exp v i = Ideal.exp (v i) := rfl

/-! ## The three payloads -/

/-- The total of a block: the sum of its sixteen rows' losses. -/
def blk (x0 x1 : Vec Ideal S16x50257 .f32) : EReal :=
  ∑ p : Fin 16, rowLoss (fun k : Fin 50257 => x0 (ix2 p k)) (fun k : Fin 50257 => x1 (ix2 p k))

/-- The row maximum, broadcast back over the row. -/
theorem shift_apply (x0 : Vec Ideal S16x50257 .f32) (h : S16x50257.Reduces [1] S16) (hφ : FKind.Formats .f32)
    (hacc : (0xFF800000#32 : BitVec FTy.f32.bits) = FKind.maximumf.neutral .f32 hφ) (hc : S16.ShapeCasts S16x1)
    (hb : S16x1.Broadcasts S16x50257) (p : Fin 16) (k : Fin 50257) :
    broadcastTo S16x50257 (shapeCast S16x1 (multiReduction (F := Ideal) .maximumf [1] S16 x0 0xFF800000#32 h hφ hacc) hc) hb (ix2 p k)
      = rowMax (fun k : Fin 50257 => x0 (ix2 p k)) :=
  (rowcast_apply _ hb p k).trans ((col_apply _ hc p 0).trans (laneMax x0 h hφ hacc p))

/-- What the body stores over the accumulator's entry: the entry it loaded plus the block's total. -/
theorem pay2_apply (x0 x1 : Vec Ideal S16x50257 .f32) (v22 : Vec Ideal S1x1 .f32) (j : S1x1.Idx) :
    k0_pay2 (F := Ideal) x0 x1 v22 j = v22 j + blk x0 x1 := by
  unfold k0_pay2
  dsimp only
  rw [shapeCast_self]
  show v22 j + _ = _
  refine congrArg (v22 j + ·) ?_
  refine (one_apply _ _ j).trans ?_
  refine (rowsSum _ _ _ _ 0).trans ?_
  unfold blk
  refine Finset.sum_congr rfl fun p _ => ?_
  refine (col_apply _ _ p 0).trans ?_
  refine (laneSum _ _ _ _ p).trans ?_
  unfold rowLoss logSoft
  refine Finset.sum_congr rfl fun k _ => ?_
  show x1 (ix2 p k) * ((x0 (ix2 p k) - broadcastTo S16x50257 _ _ (ix2 p k)) - broadcastTo S16x50257 _ _ (ix2 p k)) = _
  refine congrArg₂ (fun a b => x1 (ix2 p k) * ((x0 (ix2 p k) - a) - b)) (shift_apply x0 _ _ _ _ _ p k) ?_
  refine (rowcast_apply _ _ p k).trans ?_
  refine (log_apply _ _).trans ?_
  refine congrArg Ideal.log ((col_apply _ _ p 0).trans ((laneSum _ _ _ _ p).trans (Finset.sum_congr rfl fun k' _ => ?_)))
  refine (exp_apply _ _).trans ?_
  exact congrArg (fun z => Ideal.exp (x0 (ix2 p k') - z)) (shift_apply x0 _ _ _ _ _ p k')

/-- What the body stores into the output block: the scratch buffer scaled by -1/4096. -/
theorem pay3_apply (v30 : Vec Ideal S8x128 .f32) (y : S8x128.Idx) :
    k0_pay3 (F := Ideal) v30 y = v30 y * ((-1 / 4096 : ℝ) : EReal) := by
  unfold k0_pay3
  show v30 y * Ideal.ofBits .f32 0xB9800000#32 = _
  rw [Cert.Consts.ofBits_neg_inv_4096]

/-- The block the body resets the scratch buffer to: zero everywhere. -/
theorem pay1_apply (y : S8x128.Idx) : k0_pay1 (F := Ideal) y = 0 := by
  unfold k0_pay1
  rw [shapeCast_self]
  show Ideal.ofBits .f32 0x00000000#32 = 0
  exact Ideal.ofBits_zero_f32

end Cert.KernelIdeal.Payload

end
-- ==== Proof.TileSum.lean ====
/-
  Summing the output tile.  The 16 × 128 result array holds, in entry (0, 0) of each of its two 8 × 128 blocks,
  that half's scaled accumulator, and zero everywhere else; so its total is the two scaled accumulators added.
-/
import Idealize.ShloMosaic.Lib.ValueIdx

noncomputable section

open Idealize.ShloMosaic Idealize.ShloMosaic.ValueIdx

namespace Cert.TileSum

/-- The total of an array that is `A (128 (p / 8) + 127) · s` at the entries `(p, 0)` with `8 ∣ p` and `0 · s` elsewhere. -/
theorem tile_total (A : ℕ → EReal) (s : EReal) :
    ∑ j : (⟨2, ![16, 128]⟩ : Shape).Idx,
        (if (j 0).val % 8 = 0 ∧ (j 1).val = 0 then A (128 * ((j 0).val / 8) + 127) else 0) * s
      = A 127 * s + A 255 * s := by
  rw [sum_idx2]
  have inner : ∀ p : Fin 16, ∑ q : Fin 128,
      (if ((ix2 p q : (⟨2, ![16, 128]⟩ : Shape).Idx) 0).val % 8 = 0 ∧ ((ix2 p q : (⟨2, ![16, 128]⟩ : Shape).Idx) 1).val = 0
        then A (128 * (((ix2 p q : (⟨2, ![16, 128]⟩ : Shape).Idx) 0).val / 8) + 127) else 0) * s
      = (if p.val % 8 = 0 then A (128 * (p.val / 8) + 127) else 0) * s := by
    intro p
    rw [Finset.sum_eq_single (0 : Fin 128)]
    · show (if p.val % 8 = 0 ∧ (0 : Fin 128).val = 0 then A (128 * (p.val / 8) + 127) else 0) * s = _
      rw [if_congr (and_iff_left (show ((0 : Fin 128) : ℕ) = 0 from rfl)) rfl rfl]
    · intro q _ hq
      show (if p.val % 8 = 0 ∧ q.val = 0 then A (128 * (p.val / 8) + 127) else 0) * s = 0
      rw [if_neg (fun h => hq (Fin.ext h.2)), zero_mul]
    · intro h; exact absurd (Finset.mem_univ _) h
  rw [Finset.sum_congr rfl fun p _ => inner p,
    Fin.sum_univ_eq_sum_range (fun n => (if n % 8 = 0 then A (128 * (n / 8) + 127) else 0) * s) 16]
  simp [Finset.sum_range_succ]

end Cert.TileSum

end
-- ==== Proof.KernelValue.lean ====
/-
  What the idealized kernel's run leaves, as numbers.  Point `t` of the 2 × 128 grid loads rows
  `16 t … 16 t + 15` of the scores and of the targets, so the total it adds to the accumulator is the sum of those
  sixteen rows' losses; by induction on the point the scratch buffer after point `t` is zero but for entry (0, 0),
  which holds the running total of its half; the last point of each half writes the scratch buffer, scaled by
  -1/4096, into block `t / 128` of the 16 × 128 result array, and the two blocks cover that array.  The host then
  sums the array from zero.
-/
import proofs.«119665_j48430051230146_1_alg».proof.Proof.Gen.KernelIdeal.Frame
import proofs.«119665_j48430051230146_1_alg».proof.Proof.Pieces
import proofs.«119665_j48430051230146_1_alg».proof.Proof.Payload
import proofs.«119665_j48430051230146_1_alg».proof.Proof.RowLoss
import proofs.«119665_j48430051230146_1_alg».proof.Proof.TileSum
import Idealize.ShloMosaic.Lib.Pipeline.Value
import Idealize.ShloMosaic.Lib.StableHlo.Run
import Idealize.ShloMosaic.Lib.ValueIdx
import Idealize.ShloMosaic.PureOps.Ideal.Laws

noncomputable section

open Idealize.ShloMosaic Idealize.ShloMosaic.TcCoe Idealize.SL.Sem Idealize.ShloMosaic.ValueIdx
open Idealize.ShloMosaic.Pipeline (Dat)

namespace Cert.KernelIdeal.KVal

open Cert.KernelIdeal Cert.KernelIdeal.Gen Cert.KernelIdeal.Pieces Cert.KernelIdeal.Payload Cert.RowLoss

variable (m : (ℓ : Loc nD τ sig) → Buf (Elt Ideal) ℓ) (ρ : Dev nD → PrngReg)

/-! ## The arrays, and the block a point loads -/

/-- The scores and the targets, as the region finds them. -/
def X (c : Dev nD) : (⟨2, ![4096, 50257]⟩ : Shape).Idx → EReal := V m c main_arg0
def T (c : Dev nD) : (⟨2, ![4096, 50257]⟩ : Shape).Idx → EReal := V m c main_arg1

/-- The printed index maps over the grid: the inputs' block row is the point's number, the output's block row is the
    half the point is in. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val / 128 ∧ win0_2.index t (1 : Fin 2) = 0 :=
  (by decide +kernel : ∀ t : Fin grid0.N, _)

/-- Entry (p, k) of the block of scores point `t` loads is entry (16 t + p, k) of the scores; -/
theorem iblk0_apply (c : Dev nD) (t : Fin cfg0.N) (p : Fin 16) (k : Fin 50257) (h : 16 * t.val + p.val < 4096) :
    (iblk m c 0 t : Vec Ideal S16x50257 .f32) (ix2 p k) = X m c (ix2 (⟨16 * t.val + p.val, h⟩ : Fin 4096) k) := by
  obtain ⟨h0, h1, -⟩ := idx_facts t
  unfold iblk X
  rw [View.read_apply]
  show V m c main_arg0 _ = V m c main_arg0 _
  refine congrArg (V m c main_arg0) (funext fun a => Fin.ext ?_)
  match a with
  | ⟨0, _⟩ =>
    show win0_0.index t (0 : Fin 2) * 16 + 1 * p.val = 16 * t.val + p.val
    rw [h0]; omega
  | ⟨1, _⟩ =>
    show win0_0.index t (1 : Fin 2) * 50257 + 1 * k.val = k.val
    rw [h1]; omega

/-- and likewise for the targets. -/
theorem iblk1_apply (c : Dev nD) (t : Fin cfg0.N) (p : Fin 16) (k : Fin 50257) (h : 16 * t.val + p.val < 4096) :
    (iblk m c 1 t : Vec Ideal S16x50257 .f32) (ix2 p k) = T m c (ix2 (⟨16 * t.val + p.val, h⟩ : Fin 4096) k) := by
  obtain ⟨-, -, h0, h1, -⟩ := idx_facts t
  unfold iblk T
  rw [View.read_apply]
  show V m c main_arg1 _ = V m c main_arg1 _
  refine congrArg (V m c main_arg1) (funext fun a => Fin.ext ?_)
  match a with
  | ⟨0, _⟩ =>
    show win0_1.index t (0 : Fin 2) * 16 + 1 * p.val = 16 * t.val + p.val
    rw [h0]; omega
  | ⟨1, _⟩ =>
    show win0_1.index t (1 : Fin 2) * 50257 + 1 * k.val = k.val
    rw [h1]; omega

/-- The total of block `n`: its sixteen rows' losses. -/
def B (c : Dev nD) : ℕ → EReal := blockSum (rowL (X m c) (T m c))

/-- The total point `t` computes from the blocks it loads is the total of block `t`. -/
theorem blk_eq (c : Dev nD) (t : Fin cfg0.N) :
    blk (iblk m c 0 t : Vec Ideal S16x50257 .f32) (iblk m c 1 t : Vec Ideal S16x50257 .f32) = B m c t.val := by
  have hN : t.val < 256 := lt_of_lt_of_eq t.isLt (show cfg0.N = 256 from N_0)
  unfold blk B blockSum
  rw [← Fin.sum_univ_eq_sum_range (fun p => rowL (X m c) (T m c) (16 * t.val + p)) 16]
  refine Finset.sum_congr rfl fun p _ => ?_
  have hp : 16 * t.val + p.val < 4096 := by have := p.isLt; omega
  unfold rowL
  rw [dif_pos hp]
  exact congrArg₂ rowLoss (funext fun k => iblk0_apply m c t p k hp) (funext fun k => iblk1_apply m c t p k hp)

/-! ## The scratch buffer after each point -/

/-- A scratch buffer that is zero but for entry (0, 0). -/
def accTile (a : EReal) : Vec Ideal S8x128 .f32 := fun y => if (y 0).val = 0 ∧ (y 1).val = 0 then a else 0

/-- Replacing entry (0, 0) of such a buffer by itself plus a block's total gives such a buffer. -/
theorem step_tile (a : EReal) (x0 x1 : Vec Ideal S16x50257 .f32) :
    setFirst (accTile a) (k0_pay2 (F := Ideal) x0 x1 (firstOf (accTile a))) = accTile (a + blk x0 x1) := by
  funext y
  unfold setFirst
  by_cases h : (y 0).val = 0 ∧ (y 1).val = 0
  · rw [if_pos h, pay2_apply]
    show accTile a o00 + _ = accTile _ y
    unfold accTile
    rw [if_pos h, if_pos ⟨rfl, rfl⟩]
  · rw [if_neg h]
    unfold accTile
    rw [if_neg h, if_neg h]

/-- The zero block is such a buffer, at zero. -/
theorem pay1_eq : (k0_pay1 (F := Ideal) : Vec Ideal S8x128 .f32) = accTile 0 := by
  funext y
  rw [pay1_apply]
  unfold accTile
  rw [ite_self]

variable (c : Dev nD)

/-- THE FIRST POINT of a half leaves the accumulator at zero plus the point's total; -/
theorem scr_A (t : Fin cfg0.N) (h0 : t.val % 128 = 0) (h1 : ¬t.val % 128 = 127) :
    (outsAt0 m c t.val t.isLt).2 = accTile (0 + B m c t.val) := by
  rw [outsAt0_A m c t h0 h1, ← blk_eq m c t, ← step_tile, ← pay1_eq]
  exact sout_A (F := Ideal) c (grid0.coords t) (ms0_0 t) (hs0_0 t) (ms0_1 t) (hs0_1 t) (ms0_2 t) (hs0_2 t) scM0_0
    (Memref.isWhole_whole _) ((hcond0_0 t).mpr h0) (fun h => h1 ((hcond0_1 t).mp h)) (iblk m c 0 t) (iblk m c 1 t)

/-- a later point adds its total to what the point before left; -/
theorem scr_B (t : Fin cfg0.N) (h0 : ¬t.val % 128 = 0) (h1 : ¬t.val % 128 = 127) (a : EReal)
    (hprev : (outsAt0 m c (t.val - 1) (Nat.lt_of_le_of_lt (Nat.sub_le _ _) t.isLt)).2 = accTile a) :
    (outsAt0 m c t.val t.isLt).2 = accTile (a + B m c t.val) := by
  rw [outsAt0_B m c t h0 h1, ← blk_eq m c t, ← step_tile, ← hprev]
  exact sout_B (F := Ideal) c (grid0.coords t) (ms0_0 t) (hs0_0 t) (ms0_1 t) (hs0_1 t) (ms0_2 t) (hs0_2 t) scM0_0
    (Memref.isWhole_whole _) (fun h => h0 ((hcond0_0 t).mp h)) (fun h => h1 ((hcond0_1 t).mp h)) (iblk m c 0 t) (iblk m c 1 t) _

/-- so does the last point of a half, -/
theorem scr_C (t : Fin cfg0.N) (h0 : ¬t.val % 128 = 0) (h1 : t.val % 128 = 127) (a : EReal)
    (hprev : (outsAt0 m c (t.val - 1) (Nat.lt_of_le_of_lt (Nat.sub_le _ _) t.isLt)).2 = accTile a) :
    (outsAt0 m c t.val t.isLt).2 = accTile (a + B m c t.val) := by
  rw [outsAt0_C m c t h0 h1, ← blk_eq m c t, ← step_tile, ← hprev]
  exact sout_C (F := Ideal) c (grid0.coords t) (ms0_0 t) (hs0_0 t) (ms0_1 t) (hs0_1 t) (ms0_2 t) (hs0_2 t) scM0_0
    (Memref.isWhole_whole _) (fun h => h0 ((hcond0_0 t).mp h)) ((hcond0_1 t).mpr h1) (iblk m c 0 t) (iblk m c 1 t) _

/-- which also stores that buffer, scaled, into the output block. -/
theorem out_C' (t : Fin cfg0.N) (h0 : ¬t.val % 128 = 0) (h1 : t.val % 128 = 127) (a : EReal)
    (hprev : (outsAt0 m c (t.val - 1) (Nat.lt_of_le_of_lt (Nat.sub_le _ _) t.isLt)).2 = accTile a) :
    (outsAt0 m c t.val t.isLt).1 = k0_pay3 (F := Ideal) (accTile (a + B m c t.val)) := by
  rw [outsAt0_C m c t h0 h1, ← blk_eq m c t, ← step_tile, ← hprev]
  exact out_C (F := Ideal) c (grid0.coords t) (ms0_0 t) (hs0_0 t) (ms0_1 t) (hs0_1 t) (ms0_2 t) (hs0_2 t) scM0_0
    (Memref.isWhole_whole _) (fun h => h0 ((hcond0_0 t).mp h)) ((hcond0_1 t).mpr h1) (iblk m c 0 t) (iblk m c 1 t) _

/-- THE ACCUMULATION: after point `n` the scratch buffer is zero but for entry (0, 0), which holds the running total
    of the half the point is in. -/
theorem scratch_eq : ∀ (n : ℕ) (h : n < cfg0.N), (outsAt0 m c n h).2 = accTile (accAfter (B m c) n)
  | 0, h => by
    rw [accAfter_reset _ 0 rfl]
    exact scr_A m c ⟨0, h⟩ rfl (show ¬(0 % 128 = 127) from by decide)
  | n + 1, h => by
    by_cases h0 : (n + 1) % 128 = 0
    · rw [accAfter_reset _ _ h0]
      exact scr_A m c ⟨n + 1, h⟩ h0 (show ¬(n + 1) % 128 = 127 from by omega)
    · rw [accAfter_step _ _ h0]
      by_cases h1 : (n + 1) % 128 = 127
      · exact scr_C m c ⟨n + 1, h⟩ h0 h1 _ (scratch_eq n (Nat.lt_of_succ_lt h))
      · exact scr_B m c ⟨n + 1, h⟩ h0 h1 _ (scratch_eq n (Nat.lt_of_succ_lt h))

/-- What the last point of a half stores into the output block. -/
theorem out_eq (t : Fin cfg0.N) (h1 : t.val % 128 = 127) :
    (outsAt0 m c t.val t.isLt).1 = k0_pay3 (F := Ideal) (accTile (accAfter (B m c) t.val)) := by
  have h0 : ¬t.val % 128 = 0 := by omega
  have hpos : 0 < t.val := by omega
  rw [accAfter_step _ _ h0]
  exact out_C' m c t h0 h1 _ (scratch_eq m c (t.val - 1) (Nat.lt_of_le_of_lt (Nat.sub_le _ _) t.isLt))

/-! ## The result array -/

/-- The 16 × 128 result array: row `8 h`, column 0 holds half `h`'s accumulator scaled by -1/4096; every other
    entry holds zero scaled. -/
def G : Buf (Elt Ideal) ((c : Thread nD τ).loc main_v0) := fun i =>
  (if (i 0).val % 8 = 0 ∧ (i 1).val = 0 then accAfter (B m c) (128 * ((i 0).val / 8) + 127) else 0) * ((-1 / 4096 : ℝ) : EReal)

/-- What a flushing point writes back is its block of that array. -/
theorem flushed_eq (t : Fin cfg0.N) (hf : (cfg0.win 2).flush t = true) :
    (dats m 0 c).flushed 2 t = ((cfg0.win 2).blk t).view.read (Elt Ideal) (G m c) := by
  have h127 : t.val % 128 = 127 := (flush0_2 t).mp hf
  obtain ⟨-, -, -, -, e0, e1⟩ := idx_facts t
  show (cfg0.win 2).cut (grid0.coords t) ((dats m 0 c).after 2 t) = _
  rw [after0_2, out_eq m c t h127]
  funext j
  obtain ⟨a, b, rfl⟩ : ∃ (a : Fin 8) (b : Fin 128), j = ix2 a b := ⟨j 0, j 1, eq_ix2 j⟩
  show k0_pay3 (F := Ideal) (accTile (accAfter (B m c) t.val)) (ix2 a b) = G m c (((cfg0.win 2).blk t).view.emb (ix2 a b))
  rw [pay3_apply]
  have i0 : ((((cfg0.win 2).blk t).view.emb (ix2 a b)) 0).val = t.val / 128 * 8 + a.val := by
    show win0_2.index t (0 : Fin 2) * 8 + 1 * a.val = _
    rw [e0]; omega
  have i1 : ((((cfg0.win 2).blk t).view.emb (ix2 a b)) 1).val = b.val := by
    show win0_2.index t (1 : Fin 2) * 128 + 1 * b.val = _
    rw [e1]; omega
  unfold G accTile
  rw [i0, i1]
  have ha : a.val < 8 := a.isLt
  have hc : ((t.val / 128 * 8 + a.val) % 8 = 0 ∧ b.val = 0) ↔ (a.val = 0 ∧ b.val = 0) := by omega
  have hn : 128 * ((t.val / 128 * 8 + a.val) / 8) + 127 = t.val := by omega
  show (if a.val = 0 ∧ b.val = 0 then _ else 0) * _ = _
  rw [hn, if_congr hc rfl rfl]

/-- An index of the result array is in point `t`'s block iff its coordinates are in the block's ranges. -/
theorem mem_blk (t : Fin cfg0.N) (i : S16x128.Idx) :
    i ∈ ((cfg0.win 2).blk t).view.set ↔ ∀ a : Fin 2, win0_2.index t a * S8x128.size a ≤ (i a).val ∧ (i a).val < win0_2.index t a * S8x128.size a + S8x128.size a := by
  show i ∈ ((View.whole main_v0).slice (win0_2.rect t)).set ↔ _
  rw [View.set_slice_whole, Rect.mem_set_unit]
  exact Iff.rfl

/-- THE ARRAY AFTER THE RUN: the last point of the half an index's row lies in covers it. -/
theorem final : (dats m 0 c).arrAt 2 cfg0.N = G m c :=
  (dats m 0 c).arrAt_eq_of_cover 2 (G m c) (flushed_eq m c) fun i => by
    have hi0 : (i 0).val < 16 := (i 0).isLt
    have hi1 : (i 1).val < 128 := (i 1).isLt
    obtain ⟨t, ht⟩ : ∃ t : Fin cfg0.N, t.val = 128 * ((i 0).val / 8) + 127 :=
      ⟨⟨128 * ((i 0).val / 8) + 127, by rw [show cfg0.N = 256 from N_0]; omega⟩, rfl⟩
    obtain ⟨-, -, -, -, e0, e1⟩ := idx_facts t
    refine ⟨t, (flush0_2 t).mpr (by omega), ?_⟩
    rw [mem_blk]
    intro a
    match a with
    | ⟨0, _⟩ =>
      show win0_2.index t (0 : Fin 2) * 8 ≤ (i 0).val ∧ (i 0).val < win0_2.index t (0 : Fin 2) * 8 + 8
      rw [e0]; omega
    | ⟨1, _⟩ =>
      show win0_2.index t (1 : Fin 2) * 128 ≤ (i 1).val ∧ (i 1).val < win0_2.index t (1 : Fin 2) * 128 + 128
      rw [e1]; omega

end Cert.KernelIdeal.KVal

end
-- ==== Proof.KernelRun.lean ====
/-
  The idealized kernel's run, read: after the region the host sums the 16 × 128 result array from zero, so the
  program's result is zero plus the two halves' accumulators, each scaled by -1/4096; the scores and the targets
  end unchanged.
-/
import proofs.«119665_j48430051230146_1_alg».proof.Proof.KernelValue

noncomputable section

open Idealize.ShloMosaic Idealize.ShloMosaic.TcCoe Idealize.SL.Sem Idealize.ShloMosaic.ValueIdx Idealize.ShloMosaic.StableHlo
open Idealize.ShloMosaic.Pipeline (Dat)

namespace Cert.KernelIdeal.KVal

open Cert.KernelIdeal Cert.KernelIdeal.Gen Cert.RowLoss

variable (m : (ℓ : Loc nD τ sig) → Buf (Elt Ideal) ℓ) (ρ : Dev nD → PrngReg) (c : Dev nD)

/-- The program's result: the host's sum, from zero, of the result array. -/
def kres : Buf (Elt Ideal) ((c : Thread nD τ).loc main_v1) :=
  Host.reduceAdd (G m c) (constant (F := Ideal) S_ .f32 0x00000000#32) Facts₀.reducesTo_S16x128_S_d0_1 Facts₀.h_S_

/-- The host lines after the region leave the result at that sum of what the region left in the result array. -/
theorem tail_eq : Pipeline.afterTail₀ cfgs (dats m) 0 (V0 m) [hostOps1] c main_v1 = kres m c := by
  unfold Pipeline.afterTail₀
  show StableHlo.after hostOps1 _ (Proc.devRef .tc main_v1) = _
  after_results
  unfold kres
  rw [show Pipeline.withArrays (cfgs 0).spec c (V0 m c) (fun w => (dats m 0 c).arrAt w (cfgs 0).N) (Proc.devRef .tc main_v0) = G m c from
    (Pipeline.withArrays_arr spec0 launch0.win.arr_inj c _ _ 2).trans (final m c)]

/-- THE RUN: every weakly fair execution terminates with the result at `kres` and the arguments unchanged. -/
theorem run : θ_run defs (onTc (τ := τ) (main (F := Ideal))) ⟨m, fun _ => 0, ρ⟩ fun r => ∀ c : Dev nD,
      r.2.mem ((c.tc : Thread nD τ).loc main_v1) = kres m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨((h c).2 main_v1 (by decide)).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

/-- The result as a number: zero plus the two scaled accumulators. -/
theorem kres_apply (i : S_.Idx) :
    kres m c i = 0 + (accAfter (B m c) 127 * ((-1 / 4096 : ℝ) : EReal) + accAfter (B m c) 255 * ((-1 / 4096 : ℝ) : EReal)) := by
  unfold kres
  simp only [Host.reduceAdd, Ideal.hostReduceAdd_def]
  rw [Ideal.hostReduceAdd_total Facts₀.reducesTo_S16x128_S_d0_1 (fun b => b.elim0)]
  refine congrArg₂ (· + ·) Ideal.ofBits_zero_f32 ?_
  unfold G
  exact Cert.TileSum.tile_total _ _

end Cert.KernelIdeal.KVal

end
-- ==== Proof.Finite.lean ====
/-
  The precondition read as a fact about numbers.  It says that every score and every target is smaller in
  absolute value than +∞; over the extended reals an `x` with `max x (-x) < ⊤` is neither infinity, so it is a
  real number.
-/
import proofs.«119665_j48430051230146_1_alg».proof.Pre_finite_inputs
import proofs.«119665_j48430051230146_1_alg».proof.Proof.Gen.Pre_finite_inputs
import proofs.«119665_j48430051230146_1_alg».proof.Proof.Consts
import Idealize.ShloMosaic.Lib.ReduceAll
import Idealize.ShloMosaic.Lib.ValueIdx
import Idealize.ShloMosaic.Lib.Affine

noncomputable section

open Idealize.ShloMosaic

namespace Cert.Finite

instance : Subsingleton Cert.Pre_finite_inputs.S_.Idx := ⟨fun a b => funext fun d => d.elim0⟩

/-- An extended real whose absolute value is below +∞ is a real. -/
theorem real_of_abs_lt (x : EReal) (h : Ideal.cmp .olt (max x (-x)) ⊤ = 1#1) : ∃ a : ℝ, x = a := by
  have h' : max x (-x) < ⊤ := by
    by_contra hn
    simp [Ideal.cmp, hn] at h
  induction x using EReal.rec with
  | bot => simp at h'
  | coe a => exact ⟨a, rfl⟩
  | top => simp at h'

/-- Under the precondition every score and every target is a real. -/
theorem finite_of_pre (x t : FVec Ideal Cert.Pre_finite_inputs.S4096x50257 .f32)
    (h : Cert.Pre_finite_inputs.fn (F := Ideal) x t = fun _ => 1#1) :
    (∀ i, ∃ a : ℝ, x i = a) ∧ (∀ i, ∃ a : ℝ, t i = a) := by
  have h0 := congrFun h ValueIdx.ix0
  dsimp only [Cert.Pre_finite_inputs.fn] at h0
  obtain ⟨h1, h2⟩ := IntOp.andi_eq_one.mp h0
  refine ⟨fun i => ?_, fun i => ?_⟩
  · have h3 : Ideal.cmp .olt (max (x i) (-(x i))) (Ideal.ofBits .f32 0x7F800000#32) = 1#1 :=
      Host.reduce_andi_all _ _ _ _ _ h1 i
    rw [Cert.Consts.ofBits_pos_inf] at h3
    exact real_of_abs_lt _ h3
  · have h3 : Ideal.cmp .olt (max (t i) (-(t i))) (Ideal.ofBits .f32 0x7F800000#32) = 1#1 :=
      Host.reduce_andi_all _ _ _ _ _ h2 i
    rw [Cert.Consts.ofBits_pos_inf] at h3
    exact real_of_abs_lt _ h3

end Cert.Finite

end
-- ==== Proof.KernelMean.lean ====
/-
  Under the precondition the kernel's result is the batch's loss: the scores and the targets are real numbers,
  so every row's loss is a real number, and the two halves' accumulators, each scaled by -1/4096, add up to minus
  the mean of the 4096 rows' losses.
-/
import proofs.«119665_j48430051230146_1_alg».proof.Proof.KernelRun
import proofs.«119665_j48430051230146_1_alg».proof.Proof.Finite

noncomputable section

open Idealize.ShloMosaic Idealize.ShloMosaic.TcCoe Idealize.SL.Sem

namespace Cert.KernelIdeal.KVal

open Cert.KernelIdeal Cert.KernelIdeal.Gen Cert.RowLoss

/-- With finite inputs the kernel's result is minus the sum of all rows' losses, divided by 4096. -/
theorem kres_eq_mean (m : (ℓ : Loc nD τ sig) → Buf (Elt Ideal) ℓ) (c : Dev nD)
    (hpre : Cert.Pre_finite_inputs.fn (F := Ideal) (m ((c.tc : Thread nD τ).loc main_arg0)) (m ((c.tc : Thread nD τ).loc main_arg1)) = fun _ => 1#1)
    (i : S_.Idx) :
    kres m c i = Ideal.div (-(0 + ∑ n ∈ Finset.range 4096,
      rowL (m ((c.tc : Thread nD τ).loc main_arg0)) (m ((c.tc : Thread nD τ).loc main_arg1)) n)) ((4096 : ℝ) : EReal) := by
  obtain ⟨hx, ht⟩ := Cert.Finite.finite_of_pre _ _ hpre
  rw [kres_apply]
  exact halves_eq_mean (rowL (m ((c.tc : Thread nD τ).loc main_arg0)) (m ((c.tc : Thread nD τ).loc main_arg1)))
    (rowL_finite _ _ hx ht)

end Cert.KernelIdeal.KVal

end
-- ==== Proof.RefSpec.lean ====
/-
  The reference, read as numbers.  Row by row it takes the scores' maximum from -∞ (a maximum with -∞ again changes
  nothing), shifts the row by it, sums the exponentials from zero, subtracts the logarithm: entry (n, k) of its
  log-softmax is `logSoft` of row `n` at `k`.  It multiplies by the targets and sums over every entry from zero —
  a sum over rows of the rows' losses — negates, and divides by 4096.
-/
import proofs.«119665_j48430051230146_1_alg».proof.Proof.RefRead
import proofs.«119665_j48430051230146_1_alg».proof.Proof.RowLoss
import proofs.«119665_j48430051230146_1_alg».proof.Proof.Consts
import Idealize.ShloMosaic.Lib.ValueIdx
import Idealize.ShloMosaic.PureOps.Ideal.Laws

noncomputable section

open Idealize.ShloMosaic Idealize.ShloMosaic.ValueIdx

namespace Cert.ReferenceIdeal.RefSpec

open Cert.ReferenceIdeal Cert.ReferenceIdeal.Gen Cert.ReferenceIdeal.Read Cert.RowLoss

variable (x t : (⟨S4096x50257, .f32⟩ : BufTy).Contents (Elt Ideal))

/-- The row maximum the reference reduces to is the row's maximum from -∞. -/
theorem rowmax_stage (n : Fin 4096) :
    val_main_call0_v0 (F := Ideal) x (ix1 n) = rowMax (fun k : Fin 50257 => x (ix2 n k)) := by
  unfold val_main_call0_v0
  refine (Host.reduce_eq_fold_single (FloatOps.maximumf (F := Ideal) (φ := .f32)) x _ _ (by decide) _ (ix1 n)).trans ?_
  unfold rowMax
  show Finset.fold max (Ideal.ofBits .f32 0xFF800000#32) _ Finset.univ = _
  rw [Cert.Consts.ofBits_neg_inf]
  refine congrArg (fun f => Finset.fold max (⊥ : EReal) f Finset.univ) (funext fun k => congrArg x (funext fun a => Fin.ext ?_))
  match a with
  | ⟨0, _⟩ => rfl
  | ⟨1, _⟩ => rfl

/-- Entry (n, k) of the shifted scores. -/
theorem shifted_stage (n : Fin 4096) (k : Fin 50257) :
    val_main_call0_v5 (F := Ideal) x (ix2 n k) = x (ix2 n k) - rowMax (fun k : Fin 50257 => x (ix2 n k)) := by
  rw [val_main_call0_v5_apply, val_main_call0_v4_apply, val_main_call0_v3_apply, val_main_call0_v2_apply,
    val_main_call0_v1_apply, val_main_call0_cst_0_apply,
    show idx_main_call0_v3 (idx_main_call0_v4 (ix2 n k)) = ix1 n from
      funext fun a => Fin.ext (by match a with | ⟨0, _⟩ => rfl),
    rowmax_stage]
  rw [Ideal.subf_def, Ideal.maximumf_def, Ideal.ofBits_def, Cert.Consts.ofBits_neg_inf, max_bot_left]

/-- Entry (n, k) of the reference's log-softmax. -/
theorem logsoft_stage (n : Fin 4096) (k : Fin 50257) :
    val_main_v0 (F := Ideal) x (ix2 n k) = logSoft (fun k : Fin 50257 => x (ix2 n k)) k := by
  rw [val_main_v0_apply, shifted_stage, val_main_call0_v10_apply, val_main_call0_v9_apply, val_main_call0_v8_apply,
    show idx_main_call0_v8 (idx_main_call0_v10 (ix2 n k)) = ix1 n from
      funext fun a => Fin.ext (by match a with | ⟨0, _⟩ => rfl),
    val_main_call0_v7_apply, val_main_call0_cst_1_apply]
  rw [Ideal.subf_def, Ideal.hostUnary_log_def, Ideal.ofBits_def, Ideal.ofBits_zero_f32, zero_add]
  unfold logSoft
  refine congrArg₂ (· - ·) rfl (congrArg Ideal.log (Finset.sum_congr rfl fun k' _ => ?_))
  rw [val_main_call0_v6_apply,
    show idx_main_call0_v7 (ix1 n) k' = ix2 n k' from funext fun a => Fin.ext (by match a with | ⟨0, _⟩ => rfl | ⟨1, _⟩ => rfl),
    shifted_stage, Ideal.hostUnary_exp_def]

/-- The reference's sum over every entry is the sum over the rows of the rows' losses. -/
theorem total_eq : ∑ j : S4096x50257.Idx, val_main_v1 (F := Ideal) x t j = ∑ n ∈ Finset.range 4096, rowL x t n := by
  rw [sum_idx2, ← Fin.sum_univ_eq_sum_range (fun n => rowL x t n) 4096]
  refine Finset.sum_congr rfl fun n _ => ?_
  unfold rowL
  rw [dif_pos n.isLt]
  unfold rowLoss
  refine Finset.sum_congr rfl fun k _ => ?_
  rw [val_main_v1_apply, logsoft_stage]
  rfl

/-- THE REFERENCE'S RESULT: minus the sum of all rows' losses, divided by 4096. -/
theorem ref_eq (i : S_.Idx) :
    val_main_v4 (F := Ideal) x t i = Ideal.div (-(0 + ∑ n ∈ Finset.range 4096, rowL x t n)) ((4096 : ℝ) : EReal) := by
  rw [val_main_v4_apply, val_main_v3_apply, val_main_v2_apply, val_main_cst_0_apply, val_main_cst_apply,
    Ideal.hostDivf_def, Ideal.hostNegf_def, Ideal.negf_def, Ideal.ofBits_def, Ideal.ofBits_def,
    Ideal.ofBits_zero_f32, Cert.Consts.ofBits_4096, total_eq]

end Cert.ReferenceIdeal.RefSpec

end
-- ==== Proof.lean ====
/-
  The certificate of a soft-target cross-entropy kernel against its reference.

  Both programs take 4096 rows of 50257 scores and as many targets.  Row by row both form the log-softmax —
  the scores shifted by the row's maximum, less the logarithm of the sum of the shifted scores' exponentials —
  and the row's loss, the sum of the targets times the log-softmax.  The reference sums every row's loss,
  negates and divides by 4096.  The kernel walks the rows in 256 blocks of sixteen, in two halves of 128 blocks:
  each half accumulates its blocks' totals in one entry of a scratch buffer, and at its last block writes the
  buffer, scaled by -1/4096, into its 8 × 128 block of the result array; the host then sums that array.

  Over the extended reals the two results agree because, under the precondition, every score and target is a real
  number, hence every row loss is: the kernel's sum of two scaled halves and the reference's scaled sum are then
  equal real numbers by distributivity (at an infinity they need not be).  The ideal pass rewrote nothing, so
  `preserves` holds trivially; the kernels' frames are the generated ones, and the reference's frame is its run
  with the result forgotten.
-/
import proofs.«119665_j48430051230146_1_alg».proof.Defs
import proofs.«119665_j48430051230146_1_alg».proof.Proof.Gen.Kernel
import proofs.«119665_j48430051230146_1_alg».proof.Proof.Gen.Kernel.Frame
import proofs.«119665_j48430051230146_1_alg».proof.Proof.Gen.KernelIdeal
import proofs.«119665_j48430051230146_1_alg».proof.Proof.Gen.KernelIdeal.Frame
import proofs.«119665_j48430051230146_1_alg».proof.Proof.Gen.ReferenceIdeal
import proofs.«119665_j48430051230146_1_alg».proof.Proof.Gen.Pre_finite_inputs
import proofs.«119665_j48430051230146_1_alg».proof.Proof.KernelMean
import proofs.«119665_j48430051230146_1_alg».proof.Proof.RefRun
import proofs.«119665_j48430051230146_1_alg».proof.Proof.RefRead
import proofs.«119665_j48430051230146_1_alg».proof.Proof.RefSpec
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, the result forgotten. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- At the extended reals the kernel ends at zero plus its two scaled half totals, the reference at minus the sum of
    all row losses over 4096, of arguments that agree; with finite arguments these are one number. -/
theorem algebraic : Cert.algebraic_KernelIdeal_ReferenceIdeal := by
  intro m ρ m' ρ' hpre hagree
  refine ⟨fun c => Cert.KernelIdeal.KVal.kres m c, Cert.KernelIdeal.KVal.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  funext i
  refine (congrFun (Cert.ReferenceIdeal.Read.val_main_v4_eq _ _) i).trans ?_
  rw [Cert.ReferenceIdeal.RefSpec.ref_eq]
  exact (Cert.KernelIdeal.KVal.kres_eq_mean m c (hpre c) i).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
